-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x64 .f32) (main_arg9 : FVec F S2 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x128 .f32) (main_arg6 : FVec F S64 .f32) (main_arg7 : FVec F S64x128 .f32) (main_arg8 : FVec F S2x64 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) (main_arg8 : FVec F S2x64 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S256x128 : Shape := ⟨2, ![256, 128]⟩
abbrev S1x128 : Shape := ⟨2, ![1, 128]⟩
abbrev S5000x128 : Shape := ⟨2, ![5000, 128]⟩
abbrev S5000x1 : Shape := ⟨2, ![5000, 1]⟩
abbrev S5000x256 : Shape := ⟨2, ![5000, 256]⟩
abbrev S128x64 : Shape := ⟨2, ![128, 64]⟩
abbrev S256x64 : Shape := ⟨2, ![256, 64]⟩
abbrev S64x2 : Shape := ⟨2, ![64, 2]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩
abbrev S5000x64 : Shape := ⟨2, ![5000, 64]⟩

abbrev nBuf : Space → Nat
  | .hbm => 65
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S2x64, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S128x128, .f32⟩
  | .hbm, ⟨41, _⟩ => ⟨S128x128, .f32⟩
  | .hbm, ⟨42, _⟩ => ⟨S256x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S128x64, .f32⟩
  | .hbm, ⟨59, _⟩ => ⟨S128x64, .f32⟩
  | .hbm, ⟨60, _⟩ => ⟨S256x64, .f32⟩
  | .hbm, ⟨61, _⟩ => ⟨S64x2, .f32⟩
  | .hbm, ⟨62, _⟩ => ⟨S1x64, .f32⟩
  | .hbm, ⟨63, _⟩ => ⟨S1x2, .f32⟩
  | .hbm, ⟨64, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S256x64, .f32⟩
  | .local _ .vmem, ⟨17, _⟩ => ⟨S1x64, .f32⟩
  | .local _ .vmem, ⟨18, _⟩ => ⟨S64x2, .f32⟩
  | .local _ .vmem, ⟨19, _⟩ => ⟨S1x2, .f32⟩
  | .local _ .vmem, ⟨20, _⟩ => ⟨S5000x2, .f32⟩
  | .local _ .vmem, ⟨21, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S128x128_S128x128_1_0 : S128x128.Transposes [1, 0] S128x128
  concatenates_S128x128_S128x128_S256x128_d0 : Shape.Concatenates [S128x128, S128x128] S256x128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  concatenates_S5000x128_S5000x128_S5000x256_d1 : Shape.Concatenates [S5000x128, S5000x128] S5000x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  concatenates_S128x64_S128x64_S256x64_d0 : Shape.Concatenates [S128x64, S128x64] S256x64 0
  transposes_S2x64_S64x2_1_0 : S2x64.Transposes [1, 0] S64x2
  shapeCasts_S64_S1x64 : S64.ShapeCasts S1x64
  shapeCasts_S2_S1x2 : S2.ShapeCasts S1x2
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S256x128_S5000x128_1_0_0_1_n_n_wf : DotDims.WF S5000x256 S256x128 S5000x128 [1] [0] [0] [1] [] []
  dot_S5000x256_S256x64_S5000x64_1_0_0_1_n_n_wf : DotDims.WF S5000x256 S256x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S64x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S2x64, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S128x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x2, .f32⟩
  | .hbm, ⟨87, _⟩ => ⟨S100000x2, .f32⟩
  | .hbm, ⟨88, _⟩ => ⟨S1x2, .f32⟩
  | .hbm, ⟨89, _⟩ => ⟨S100000x2, .f32⟩
  | .hbm, ⟨90, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run with its result named. The program is two kernel regions among two stretches of host
  operations; the buffers' contents at the four boundaries are a fold from the launch memory (host stretch, region 0's
  write-backs, host stretch, region 1's write-backs). Every weakly fair execution terminates without a fault in a state
  where every unscoped buffer holds the last boundary's contents: in particular the result buffer holds what region 1's
  write-backs leave in it, and each argument buffer what it held at launch.
-/
import proofs.«132603_j56435870269829_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Gen

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibPairConcat.lean ====
/-
  Two arrays laid end to end along one axis of a rank-2 array, read at an index from its coordinates: for any
  extents and any element type, the first piece where the coordinate on that axis is below the first piece's
  extent, and the second piece, the first extent less, from there on. Stated for pieces side by side
  ([a, k₁] and [a, k₂] into [a, n], along axis 1) and for pieces stacked ([k₁, b] and [k₂, b] into [n, b], along
  axis 0).
-/
import Idealize.ShloMosaic.Lib.Pipeline.Value
import Idealize.ShloMosaic.Lib.ValueIdx

noncomputable section

open Idealize.ShloMosaic Idealize.ShloMosaic.ValueIdx

namespace Cert.Lib.PairConcat

variable {α : Type}

/-- Side by side, a column of the first piece: the first piece at the same row and column. -/
theorem concat_axis1_left {a k₁ k₂ n : ℕ} (u : (⟨2, ![a, k₁]⟩ : Shape).Idx → α) (v : (⟨2, ![a, k₂]⟩ : Shape).Idx → α)
    (h : Shape.Concatenates [⟨2, ![a, k₁]⟩, ⟨2, ![a, k₂]⟩] ⟨2, ![a, n]⟩ 1) (p : Fin a) (q : Fin n) (hq : q.val < k₁) :
    concatenate ⟨2, ![a, n]⟩ 1 [⟨⟨2, ![a, k₁]⟩, u⟩, ⟨⟨2, ![a, k₂]⟩, v⟩] h (ix2 p q) = u (ix2 p ⟨q.val, hq⟩) :=
  concatenate_pair_apply_left 1 u v h (ix2 p q) rfl (ix2 p ⟨q.val, hq⟩)
    (fun b => match b with | ⟨0, _⟩ => rfl | ⟨1, _⟩ => rfl)

/-- Side by side, a column past the first piece: the second piece at the same row, the column less the first
    piece's width. -/
theorem concat_axis1_right {a k₁ k₂ n : ℕ} (u : (⟨2, ![a, k₁]⟩ : Shape).Idx → α) (v : (⟨2, ![a, k₂]⟩ : Shape).Idx → α)
    (h : Shape.Concatenates [⟨2, ![a, k₁]⟩, ⟨2, ![a, k₂]⟩] ⟨2, ![a, n]⟩ 1) (p : Fin a) (q : Fin n) (hq : k₁ ≤ q.val)
    (hq₂ : q.val - k₁ < k₂) :
    concatenate ⟨2, ![a, n]⟩ 1 [⟨⟨2, ![a, k₁]⟩, u⟩, ⟨⟨2, ![a, k₂]⟩, v⟩] h (ix2 p q) = v (ix2 p ⟨q.val - k₁, hq₂⟩) :=
  concatenate_pair_apply_right 1 u v h (ix2 p q) rfl rfl (ix2 p ⟨q.val - k₁, hq₂⟩)
    (fun b hb => match b, hb with | ⟨0, _⟩, _ => rfl | ⟨1, _⟩, hb => absurd rfl hb)
    (by show q.val - k₁ + k₁ = q.val; omega)

/-- Stacked, a row of the first piece: the first piece at the same row and column. -/
theorem concat_axis0_left {k₁ k₂ n b : ℕ} (u : (⟨2, ![k₁, b]⟩ : Shape).Idx → α) (v : (⟨2, ![k₂, b]⟩ : Shape).Idx → α)
    (h : Shape.Concatenates [⟨2, ![k₁, b]⟩, ⟨2, ![k₂, b]⟩] ⟨2, ![n, b]⟩ 0) (q : Fin n) (c : Fin b) (hq : q.val < k₁) :
    concatenate ⟨2, ![n, b]⟩ 0 [⟨⟨2, ![k₁, b]⟩, u⟩, ⟨⟨2, ![k₂, b]⟩, v⟩] h (ix2 q c) = u (ix2 ⟨q.val, hq⟩ c) :=
  concatenate_pair_apply_left 0 u v h (ix2 q c) rfl (ix2 ⟨q.val, hq⟩ c)
    (fun b => match b with | ⟨0, _⟩ => rfl | ⟨1, _⟩ => rfl)

/-- Stacked, a row past the first piece: the second piece at the row less the first piece's height, same column. -/
theorem concat_axis0_right {k₁ k₂ n b : ℕ} (u : (⟨2, ![k₁, b]⟩ : Shape).Idx → α) (v : (⟨2, ![k₂, b]⟩ : Shape).Idx → α)
    (h : Shape.Concatenates [⟨2, ![k₁, b]⟩, ⟨2, ![k₂, b]⟩] ⟨2, ![n, b]⟩ 0) (q : Fin n) (c : Fin b) (hq : k₁ ≤ q.val)
    (hq₂ : q.val - k₁ < k₂) :
    concatenate ⟨2, ![n, b]⟩ 0 [⟨⟨2, ![k₁, b]⟩, u⟩, ⟨⟨2, ![k₂, b]⟩, v⟩] h (ix2 q c) = v (ix2 ⟨q.val - k₁, hq₂⟩ c) :=
  concatenate_pair_apply_right 0 u v h (ix2 q c) rfl rfl (ix2 ⟨q.val - k₁, hq₂⟩ c)
    (fun b hb => match b, hb with | ⟨0, _⟩, hb => absurd rfl hb | ⟨1, _⟩, _ => rfl)
    (by show q.val - k₁ + k₁ = q.val; omega)

end Cert.Lib.PairConcat

end
-- ==== Proof.Operands.lean ====
/-
  The operands the kernel's host side builds for its two regions, each read at an index: the column of reciprocal
  clamped degrees (one over max(degree, 1), laid out as a [100000, 1] column), each layer's stacked weights (the
  layer's two weight matrices transposed and laid one above the other, so that rows 0..127 are the neighbour weights
  and rows 128..255 the node's own), and the head's weights transposed. The bias rows are plain reshapes.
-/
import proofs.«132603_j56435870269829_2_alg».proof.KernelIdeal
import proofs.«132603_j56435870269829_2_alg».proof.Proof.Gen.KernelIdeal
import proofs.«132603_j56435870269829_2_alg».proof.Proof.LibBroadcastReads
import proofs.«132603_j56435870269829_2_alg».proof.Proof.LibPairConcat
import Idealize.ShloMosaic.Lib.ValueLayout
import Idealize.ShloMosaic.PureOps.IdealRules

noncomputable section

open Idealize.ShloMosaic Idealize.ShloMosaic.ValueIdx
open Cert.KernelIdeal Cert.KernelIdeal.Facts₀ Cert.KernelIdeal.Facts

namespace Cert.Sage

/-- The word of `1.0` denotes one. -/
theorem one_f32 : Ideal.ofBits .f32 0x3F800000#32 = 1 := IdealRules.sign_bit.ideal_onePat .f32

/-- The column of reciprocal clamped degrees the kernel's host side builds from a clamped-degree vector. -/
abbrev recipCol (D : S100000.Idx → EReal) : S100000x1.Idx → EReal :=
  broadcastInDim S100000x1 ![0] bcast_S100000_S100000x1_0
    (Host.divf (broadcastInDim S100000 ![] bcast_S_S100000 (constant (F := Ideal) S_ .f32 0x3F800000#32)) D)

/-- Its entry at node `i`: the reciprocal of the node's clamped degree. -/
theorem recipCol_apply (D : S100000.Idx → EReal) (i : Fin 100000) :
    recipCol D (ix2 i (0 : Fin 1)) = Ideal.div 1 (D (ix1 i)) := by
  refine (Cert.Lib.BroadcastReads.broadcastInDim_a_a1_apply _ _ i 0).trans ?_
  show Ideal.div (Ideal.ofBits .f32 0x3F800000#32) (D (ix1 i)) = _
  rw [one_f32]

/-- The first layer's stacked weights the kernel's host side builds: the two weight matrices transposed, one above
    the other. -/
abbrev stacked1 (wl wr : S128x128.Idx → EReal) : S256x128.Idx → EReal :=
  concatenate S256x128 0 [⟨S128x128, transpose S128x128 [1, 0] wl transposes_S128x128_S128x128_1_0⟩,
    ⟨S128x128, transpose S128x128 [1, 0] wr transposes_S128x128_S128x128_1_0⟩] concatenates_S128x128_S128x128_S256x128_d0

/-- The upper half of column `c`: row `c` of the first weight matrix. -/
theorem stacked1_top (wl wr : S128x128.Idx → EReal) (k c : Fin 128) :
    stacked1 wl wr (ix2 (Fin.castAdd 128 k) c) = wl (ix2 c k) :=
  (Cert.Lib.PairConcat.concat_axis0_left (n := 256) _ _ concatenates_S128x128_S128x128_S256x128_d0 (Fin.castAdd 128 k) c
    k.isLt).trans (transpose_ix2_apply wl transposes_S128x128_S128x128_1_0 k c)

/-- The lower half of column `c`: row `c` of the second weight matrix. -/
theorem stacked1_bot (wl wr : S128x128.Idx → EReal) (k c : Fin 128) :
    stacked1 wl wr (ix2 (Fin.natAdd 128 k) c) = wr (ix2 c k) :=
  (Cert.Lib.PairConcat.concat_axis0_right (n := 256) _ _ concatenates_S128x128_S128x128_S256x128_d0 (Fin.natAdd 128 k) c
    (Nat.le_add_right 128 k.val) (by show 128 + k.val - 128 < 128; have := k.isLt; omega)).trans
    ((transpose_ix2_apply wr transposes_S128x128_S128x128_1_0 _ c).trans
      (congrArg wr (congrArg (ix2 c) (Fin.ext (by show 128 + k.val - 128 = k.val; omega)))))

/-- The second layer's stacked weights: the two 64-by-128 weight matrices transposed, one above the other. -/
abbrev stacked2 (wl wr : S64x128.Idx → EReal) : S256x64.Idx → EReal :=
  concatenate S256x64 0 [⟨S128x64, transpose S128x64 [1, 0] wl transposes_S64x128_S128x64_1_0⟩,
    ⟨S128x64, transpose S128x64 [1, 0] wr transposes_S64x128_S128x64_1_0⟩] concatenates_S128x64_S128x64_S256x64_d0

/-- The upper half of column `j`: row `j` of the first weight matrix. -/
theorem stacked2_top (wl wr : S64x128.Idx → EReal) (k : Fin 128) (j : Fin 64) :
    stacked2 wl wr (ix2 (Fin.castAdd 128 k) j) = wl (ix2 j k) :=
  (Cert.Lib.PairConcat.concat_axis0_left (n := 256) _ _ concatenates_S128x64_S128x64_S256x64_d0 (Fin.castAdd 128 k) j
    k.isLt).trans (transpose_ix2_apply wl transposes_S64x128_S128x64_1_0 k j)

/-- The lower half of column `j`: row `j` of the second weight matrix. -/
theorem stacked2_bot (wl wr : S64x128.Idx → EReal) (k : Fin 128) (j : Fin 64) :
    stacked2 wl wr (ix2 (Fin.natAdd 128 k) j) = wr (ix2 j k) :=
  (Cert.Lib.PairConcat.concat_axis0_right (n := 256) _ _ concatenates_S128x64_S128x64_S256x64_d0 (Fin.natAdd 128 k) j
    (Nat.le_add_right 128 k.val) (by show 128 + k.val - 128 < 128; have := k.isLt; omega)).trans
    ((transpose_ix2_apply wr transposes_S64x128_S128x64_1_0 _ j).trans
      (congrArg wr (congrArg (ix2 j) (Fin.ext (by show 128 + k.val - 128 = k.val; omega)))))

/-- The head's weights as the kernel is handed them: the 2-by-64 matrix transposed. -/
abbrev headT (w : S2x64.Idx → EReal) : S64x2.Idx → EReal := transpose S64x2 [1, 0] w transposes_S2x64_S64x2_1_0

end Cert.Sage

end
-- ==== Proof.HostSide.lean ====
/-
  The host side of the idealized kernel, read. Between launch and region 0 the host computes, from the edge list, the
  clamped degrees and their reciprocals, gathers the source rows of the node array and adds them up per destination
  (the neighbour sums), stacks the first layer's weights and reshapes its bias; between the regions it does the same
  gather and sum on region 0's result and prepares the second layer's and the head's operands. The gather and the sums
  are the reference's own stages on the same operands (its generated stage functions name them), so they are never
  opened: what matters is that both programs apply the same function. Buffers a stretch or a region does not write keep
  their contents, which is how the reciprocal-degree column, the edge indices and the arguments reach region 1.
-/
import proofs.«132603_j56435870269829_2_alg».proof.Proof.Gen.KernelIdeal.Frame
import proofs.«132603_j56435870269829_2_alg».proof.Proof.Gen.ReferenceIdeal.Read
import proofs.«132603_j56435870269829_2_alg».proof.Proof.Operands
import Idealize.ShloMosaic.Lib.StableHlo.Run

set_option maxRecDepth 16384

noncomputable section

open Idealize.ShloMosaic Idealize.ShloMosaic.ValueIdx Idealize.ShloMosaic.TcCoe Idealize.SL.Sem Idealize.ShloMosaic.StableHlo
open Cert.KernelIdeal Cert.KernelIdeal.Gen
open Cert.ReferenceIdeal.Read

namespace Cert.Sage

variable (m : (ℓ : Loc nD τ sig) → Buf (Elt Ideal) ℓ) (ρ : Dev nD → PrngReg) (c : Dev nD)

/-! ## Region 0's inputs, after the first host stretch -/

set_option maxHeartbeats 2000000 in
/-- The node array is as launched. -/
theorem V1_arg0 : V1 m ρ c main_arg0 = m ((c : Thread nD τ).loc main_arg0) := by
  show StableHlo.after hostOps0 (W0 m ρ c) (Proc.devRef .tc main_arg0) = _
  after_results_simp

set_option maxHeartbeats 2000000 in
/-- The neighbour sums of the node array: the reference's own stage. -/
theorem V1_v22 : V1 m ρ c main_v22
    = val_main_v13 (F := Ideal) (m ((c : Thread nD τ).loc main_arg0)) (m ((c : Thread nD τ).loc main_arg1)) := by
  show StableHlo.after hostOps0 (W0 m ρ c) (Proc.devRef .tc main_v22) = _
  after_results_simp
  rfl

set_option maxHeartbeats 2000000 in
/-- The reciprocal-degree column, over the reference's own clamped degrees. -/
theorem V1_v12 : V1 m ρ c main_v12 = recipCol (val_main_v19 (F := Ideal) (m ((c : Thread nD τ).loc main_arg1))) := by
  show StableHlo.after hostOps0 (W0 m ρ c) (Proc.devRef .tc main_v12) = _
  after_results_simp
  rfl

set_option maxHeartbeats 2000000 in
/-- The first layer's stacked weights. -/
theorem V1_v25 : V1 m ρ c main_v25
    = stacked1 (m ((c : Thread nD τ).loc main_arg2)) (m ((c : Thread nD τ).loc main_arg4)) := by
  show StableHlo.after hostOps0 (W0 m ρ c) (Proc.devRef .tc main_v25) = _
  after_results_simp
  rfl

set_option maxHeartbeats 2000000 in
/-- The first layer's bias as a row. -/
theorem V1_v26 : V1 m ρ c main_v26 = shapeCast S1x128 (m ((c : Thread nD τ).loc main_arg3)) Facts₀.shapeCasts_S128_S1x128 := by
  show StableHlo.after hostOps0 (W0 m ρ c) (Proc.devRef .tc main_v26) = _
  after_results_simp
  rfl

set_option maxHeartbeats 2000000 in
/-- The source indices of the edges: the reference's own stage. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl

set_option maxHeartbeats 2000000 in
/-- The destination indices of the edges: the reference's own stage. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-! ## What region 0 leaves alone -/

theorem W2_v1 : W2 m ρ c (Proc.devRef .tc main_v1) = val_main_v1 (F := Ideal) (m ((c : Thread nD τ).loc main_arg1)) :=
  (W2_of_ne m ρ c main_v1 (by decide)).trans (W1_v1 m ρ c)

theorem W2_v3 : W2 m ρ c (Proc.devRef .tc main_v3) = val_main_v3 (F := Ideal) (m ((c : Thread nD τ).loc main_arg1)) :=
  (W2_of_ne m ρ c main_v3 (by decide)).trans (W1_v3 m ρ c)

theorem W2_v12 : W2 m ρ c (Proc.devRef .tc main_v12)
    = recipCol (val_main_v19 (F := Ideal) (m ((c : Thread nD τ).loc main_arg1))) :=
  (W2_arr m ρ c 2).trans ((((dat0 (V1 m ρ) c).arrAt_in 2 rfl _).trans (A_eq0 (V1 m ρ) c 2)).trans (V1_v12 m ρ c))

set_option maxHeartbeats 2000000 in
theorem W2_arg5 : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp

set_option maxHeartbeats 2000000 in
theorem W2_arg6 : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp

set_option maxHeartbeats 2000000 in
theorem W2_arg7 : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp

set_option maxHeartbeats 2000000 in
theorem W2_arg8 : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp

set_option maxHeartbeats 2000000 in
theorem W2_arg9 : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp

/-! ## Region 1's inputs, after the second host stretch -/

/-- The hidden array is what region 0 left. -/
theorem V3_v27 : V3 m ρ c main_v27 = W2 m ρ c (Proc.devRef .tc main_v27) := by
  show StableHlo.after hostOps1 (W2 m ρ c) (Proc.devRef .tc main_v27) = _
  after_results_simp

/-- The reciprocal-degree column is the one region 0 used. -/
theorem V3_v12 : V3 m ρ c main_v12 = recipCol (val_main_v19 (F := Ideal) (m ((c : Thread nD τ).loc main_arg1))) := by
  show StableHlo.after hostOps1 (W2 m ρ c) (Proc.devRef .tc main_v12) = _
  after_results_simp
  exact W2_v12 m ρ c

/-- The neighbour sums of the hidden array, when that array is the reference's hidden stage: the reference's own
    second neighbour-sum stage. -/
theorem V3_v37 (hH : W2 m ρ c (Proc.devRef .tc main_v27)
      = val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))) :
    V3 m ρ c main_v37
      = val_main_v41 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  show StableHlo.after hostOps1 (W2 m ρ c) (Proc.devRef .tc main_v37) = _
  after_results_simp
  rw [hH, W2_v1, W2_v3]
  rfl

/-- The second layer's stacked weights. -/
theorem V3_v40 : V3 m ρ c main_v40
    = stacked2 (m ((c : Thread nD τ).loc main_arg5)) (m ((c : Thread nD τ).loc main_arg7)) := by
  have h : V3 m ρ c main_v40
      = stacked2 (W2 m ρ c (Proc.devRef .tc main_arg5)) (W2 m ρ c (Proc.devRef .tc main_arg7)) := by
    show StableHlo.after hostOps1 (W2 m ρ c) (Proc.devRef .tc main_v40) = _
    after_results_simp
    rfl
  rw [h, W2_arg5, W2_arg7]

/-- The head's weights transposed. -/
theorem V3_v41 : V3 m ρ c main_v41 = headT (m ((c : Thread nD τ).loc main_arg8)) := by
  show StableHlo.after hostOps1 (W2 m ρ c) (Proc.devRef .tc main_v41) = _
  after_results_simp
  rw [W2_arg8]

/-- The second layer's bias as a row. -/
theorem V3_v42 : V3 m ρ c main_v42 = shapeCast S1x64 (m ((c : Thread nD τ).loc main_arg6)) Facts₀.shapeCasts_S64_S1x64 := by
  show StableHlo.after hostOps1 (W2 m ρ c) (Proc.devRef .tc main_v42) = _
  after_results_simp
  rw [W2_arg6]
  rfl

/-- The head's bias as a row. -/
theorem V3_v43 : V3 m ρ c main_v43 = shapeCast S1x2 (m ((c : Thread nD τ).loc main_arg9)) Facts₀.shapeCasts_S2_S1x2 := by
  show StableHlo.after hostOps1 (W2 m ρ c) (Proc.devRef .tc main_v43) = _
  after_results_simp
  rw [W2_arg9]
  rfl

end Cert.Sage

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.RowLaw.lean ====
/-
  The algebra that joins the two programs, on the extended reals, for one output entry of one dense layer.

  The kernel scales the neighbour sum by the reciprocal of the clamped degree, lays the scaled row and the node's own
  row side by side, and contracts the 2K-long row against the stacked weights in one sum, then adds the bias:
      (sum_k (a_k * (1 / D)) * wl_k  +  sum_k x_k * wr_k)  +  b.
  The reference divides the neighbour sum by the clamped degree, contracts the two rows separately, and adds the
  bias between the two contractions:
      ((sum_k (a_k / D) * wl_k)  +  b)  +  sum_k x_k * wr_k.
  With D not zero the quotient a / D IS the product a * D^(-1) on every extended real, and 1 / D is D^(-1); the rest
  is commutativity and associativity of the sum, which hold on the extended reals with no finiteness. The clamped
  degree max(d, 1) is at least 1, so it is not zero, whatever d is.
-/
import Idealize.ShloMosaic.PureOps.Ideal

noncomputable section

open scoped BigOperators

open Idealize.ShloMosaic

namespace Cert.Sage

/-- A product with the reciprocal of a nonzero extended real is the quotient by it. -/
theorem mul_recip_eq_div (a D : EReal) (hD : D ≠ 0) : a * Ideal.div 1 D = Ideal.div a D := by
  rw [Ideal.div, if_neg hD, one_mul, Ideal.div, if_neg hD]

/-- A degree clamped from below at one is not zero. -/
theorem max_one_ne_zero (d : EReal) : max d 1 ≠ 0 :=
  ne_of_gt (lt_of_lt_of_le zero_lt_one (le_max_right d 1))

/-- One entry before the clamp at zero, the kernel's way: the scaled neighbour row and the node's own row
    contracted in one pass, the bias last. -/
def preK {K : ℕ} (a x : Fin K → EReal) (r : EReal) (wl wr : Fin K → EReal) (b : EReal) : EReal :=
  (∑ k, a k * r * wl k + ∑ k, x k * wr k) + b

/-- The kernel's entry depends on its six arguments through their values only. -/
theorem preK_congr {K : ℕ} {a a' x x' : Fin K → EReal} {r r' : EReal} {wl wl' wr wr' : Fin K → EReal} {b b' : EReal}
    (ha : ∀ k, a k = a' k) (hx : ∀ k, x k = x' k) (hr : r = r') (hwl : ∀ k, wl k = wl' k) (hwr : ∀ k, wr k = wr' k)
    (hb : b = b') : preK a x r wl wr b = preK a' x' r' wl' wr' b' := by
  rw [funext ha, funext hx, hr, funext hwl, funext hwr, hb]

/-- One entry before the clamp at zero, the reference's way: the mean row contracted, the bias, then the node's own
    row contracted. -/
def preR {K : ℕ} (a x : Fin K → EReal) (D : EReal) (wl wr : Fin K → EReal) (b : EReal) : EReal :=
  (∑ k, Ideal.div (a k) D * wl k + b) + ∑ k, x k * wr k

/-- The two ways agree when the divisor is not zero. -/
theorem preK_eq_preR {K : ℕ} (a x : Fin K → EReal) (D : EReal) (hD : D ≠ 0) (wl wr : Fin K → EReal) (b : EReal) :
    preK a x (Ideal.div 1 D) wl wr b = preR a x D wl wr b := by
  unfold preK preR
  simp only [mul_recip_eq_div _ _ hD]
  exact add_right_comm _ _ _

end Cert.Sage

end
-- ==== Proof.Body.lean ====
/-
  What each kernel body stores, read at one entry of its block, on the extended reals.

  Both bodies load a block of neighbour sums, the block's column of reciprocal clamped degrees, a block of node rows,
  the stacked weights and the bias row; scale each neighbour row by its node's reciprocal degree; lay the scaled row and
  the node's own row side by side; and feed the 256-long rows to one matrix product against the stacked weights. A
  change of float format is the identity here, a matrix product into the zero accumulator is the plain sum over the
  contraction coordinate, and the 256-long sum splits into its two 128-long halves: at row p and column c the first
  body stores the clamp at zero of
      (sum_k agg(p,k) * dinv(p) * w(k,c)  +  sum_k x(p,k) * w(128+k,c))  +  b(c).
  The second body computes the same at width 64, and contracts that row against the 64-by-2 head weights, adding the
  head's bias.
-/
import proofs.«132603_j56435870269829_2_alg».proof.Proof.Gen.KernelIdeal.Skeleton
import proofs.«132603_j56435870269829_2_alg».proof.Proof.LibPlainMatmul
import proofs.«132603_j56435870269829_2_alg».proof.Proof.LibPlainDot
import proofs.«132603_j56435870269829_2_alg».proof.Proof.LibBroadcastReads
import proofs.«132603_j56435870269829_2_alg».proof.Proof.LibPairConcat
import proofs.«132603_j56435870269829_2_alg».proof.Proof.RowLaw
import Idealize.ShloMosaic.Lib.ValueLayout
import Idealize.ShloMosaic.Lib.Pipeline.Value
import Idealize.ShloMosaic.Lib.ValueIdx

noncomputable section

open scoped BigOperators
open Idealize.ShloMosaic Idealize.ShloMosaic.ValueIdx
open Cert.KernelIdeal Cert.KernelIdeal.Gen

namespace Cert.Sage

/-- The row the matrix unit is fed, left half: the scaled neighbour row. -/
theorem cat_left (u v : FVec Ideal S5000x128 .f32) (p : Fin 5000) (k : Fin 128) :
    truncf (F := Ideal) .bf16 (concatenate S5000x256 1 [⟨S5000x128, u⟩, ⟨S5000x128, v⟩] concatenates_S5000x128_S5000x128_S5000x256_d1)
      bitsLt_bf16_f32 (ix2 p (Fin.castAdd 128 k)) = u (ix2 p k) :=
  Cert.Lib.PairConcat.concat_axis1_left (n := 256) u v concatenates_S5000x128_S5000x128_S5000x256_d1 p (Fin.castAdd 128 k) k.isLt

/-- The row the matrix unit is fed, right half: the node's own row. -/
theorem cat_right (u v : FVec Ideal S5000x128 .f32) (p : Fin 5000) (k : Fin 128) :
    truncf (F := Ideal) .bf16 (concatenate S5000x256 1 [⟨S5000x128, u⟩, ⟨S5000x128, v⟩] concatenates_S5000x128_S5000x128_S5000x256_d1)
      bitsLt_bf16_f32 (ix2 p (Fin.natAdd 128 k)) = v (ix2 p k) :=
  (Cert.Lib.PairConcat.concat_axis1_right (n := 256) u v concatenates_S5000x128_S5000x128_S5000x256_d1 p (Fin.natAdd 128 k)
    (Nat.le_add_right 128 k.val) (by show 128 + k.val - 128 < 128; have := k.isLt; omega)).trans
    (congrArg v (congrArg (ix2 p) (Fin.ext (by show 128 + k.val - 128 = k.val; omega))))

/-- The first body's stored value at row `p`, column `c` of its block. -/
theorem pay0_apply (v0 v6 : Vec Ideal S5000x128 .f32) (v2 : Vec Ideal S5000x1 .f32) (v9 : Vec Ideal S256x128 .f32)
    (v13 : Vec Ideal S1x128 .f32) (p : Fin 5000) (c : Fin 128) :
    k0_pay1 (F := Ideal) v0 v2 v6 v9 v13 (ix2 p c)
      = max (preK (fun k : Fin 128 => v0 (ix2 p k)) (fun k : Fin 128 => v6 (ix2 p k)) (v2 (ix2 p (0 : Fin 1)))
          (fun k : Fin 128 => v9 (ix2 (Fin.castAdd 128 k) c)) (fun k : Fin 128 => v9 (ix2 (Fin.natAdd 128 k) c))
          (v13 (ix2 (0 : Fin 1) c))) (Ideal.ofBits .f32 0x00000000#32) := by
  unfold k0_pay1
  refine congrArg₂ max ?_ rfl
  unfold preK
  refine congrArg₂ (· + ·) ?_ ?_
  · refine (Cert.Lib.PlainMatmul.plain_matmul_zero_apply (M := 5000) (K := 256) (N := 128) _ _ p c).trans ?_
    refine (Cert.Lib.PlainDot.sum_two_ranges 128 128 _).trans ?_
    refine congrArg₂ (· + ·) (Finset.sum_congr rfl fun k _ => ?_) (Finset.sum_congr rfl fun k _ => ?_)
    · refine congrArg₂ (· * ·) ?_ ?_
      · refine (cat_left _ _ p k).trans ?_
        refine congrArg₂ (· * ·) ?_ ?_
        · rw [shapeCast_self]
        · refine (Cert.Lib.BroadcastReads.broadcastTo_a1_ab_apply _ _ p _).trans ?_
          rw [shapeCast_self]
      · show shapeCast S256x128 v9 shapeCasts_S256x128_S256x128 (ix2 (Fin.castAdd 128 k) c) = _
        rw [shapeCast_self]
    · refine congrArg₂ (· * ·) ?_ ?_
      · exact cat_right _ _ p k
      · show shapeCast S256x128 v9 shapeCasts_S256x128_S256x128 (ix2 (Fin.natAdd 128 k) c) = _
        rw [shapeCast_self]
  · refine (broadcastTo_1b_ab_apply _ _ p c).trans ?_
    rw [shapeCast_self]

/-- The second body's stored value at row `p`, column `c` of its block: the hidden row (width 64, clamped at zero)
    contracted against the head's weights, plus the head's bias. -/
theorem pay1_apply (v0 v6 : Vec Ideal S5000x128 .f32) (v2 : Vec Ideal S5000x1 .f32) (v10 : Vec Ideal S256x64 .f32)
    (v14 : Vec Ideal S1x64 .f32) (v21 : Vec Ideal S64x2 .f32) (v25 : Vec Ideal S1x2 .f32) (p : Fin 5000) (c : Fin 2) :
    k1_pay1 (F := Ideal) v0 v2 v6 v10 v14 v21 v25 (ix2 p c)
      = (∑ j : Fin 64, max (preK (fun k : Fin 128 => v0 (ix2 p k)) (fun k : Fin 128 => v6 (ix2 p k)) (v2 (ix2 p (0 : Fin 1)))
            (fun k : Fin 128 => v10 (ix2 (Fin.castAdd 128 k) j)) (fun k : Fin 128 => v10 (ix2 (Fin.natAdd 128 k) j))
            (v14 (ix2 (0 : Fin 1) j))) (Ideal.ofBits .f32 0x00000000#32) * v21 (ix2 j c))
        + v25 (ix2 (0 : Fin 1) c) := by
  unfold k1_pay1
  refine congrArg₂ (· + ·) ?_ ?_
  · refine (Cert.Lib.PlainMatmul.plain_matmul_zero_apply (M := 5000) (K := 64) (N := 2) _ _ p c).trans ?_
    refine Finset.sum_congr rfl fun j _ => ?_
    refine congrArg₂ (· * ·) ?_ ?_
    · refine congrArg₂ max ?_ rfl
      unfold preK
      refine congrArg₂ (· + ·) ?_ ?_
      · refine (Cert.Lib.PlainMatmul.plain_matmul_zero_apply (M := 5000) (K := 256) (N := 64) _ _ p j).trans ?_
        refine (Cert.Lib.PlainDot.sum_two_ranges 128 128 _).trans ?_
        refine congrArg₂ (· + ·) (Finset.sum_congr rfl fun k _ => ?_) (Finset.sum_congr rfl fun k _ => ?_)
        · refine congrArg₂ (· * ·) ?_ ?_
          · refine (cat_left _ _ p k).trans ?_
            refine congrArg₂ (· * ·) ?_ ?_
            · rw [shapeCast_self]
            · refine (Cert.Lib.BroadcastReads.broadcastTo_a1_ab_apply _ _ p _).trans ?_
              rw [shapeCast_self]
          · show shapeCast S256x64 v10 shapeCasts_S256x64_S256x64 (ix2 (Fin.castAdd 128 k) j) = _
            rw [shapeCast_self]
        · refine congrArg₂ (· * ·) ?_ ?_
          · refine (cat_right _ _ p k).trans ?_
            rw [shapeCast_self]
          · show shapeCast S256x64 v10 shapeCasts_S256x64_S256x64 (ix2 (Fin.natAdd 128 k) j) = _
            rw [shapeCast_self]
      · refine (broadcastTo_1b_ab_apply _ _ p j).trans ?_
        rw [shapeCast_self]
    · show shapeCast S64x2 v21 shapeCasts_S64x2_S64x2 (ix2 j c) = _
      rw [shapeCast_self]
  · refine (broadcastTo_1b_ab_apply _ _ p c).trans ?_
    rw [shapeCast_self]

end Cert.Sage

end
-- ==== Proof.BlocksLayer1.lean ====
/-
  Region 0 (the first dense layer), from blocks to the whole array, at any contents `V` of the buffers when the region
  is entered. The grid has 20 points; point t stages rows 5000 t .. 5000 t + 4999 of the node array, of the
  neighbour-sum array and of the reciprocal-degree column, the whole stacked weight matrix and the whole bias row, and
  writes back rows 5000 t .. 5000 t + 4999 of the result. Entry (p, c) of what point t writes back depends on row p of
  its three row blocks, column c of the weights and entry c of the bias: it is entry (5000 t + p, c) of ONE function
  of the whole arrays, `layer1`. The 20 row blocks tile the 100000 rows, so after the region the result array is that
  function of the entry contents.
-/
import proofs.«132603_j56435870269829_2_alg».proof.Proof.Gen.KernelIdeal.Frame
import proofs.«132603_j56435870269829_2_alg».proof.Proof.Body

set_option maxRecDepth 16384

noncomputable section

open scoped BigOperators
open Idealize.ShloMosaic Idealize.ShloMosaic.ValueIdx Idealize.ShloMosaic.TcCoe Idealize.SL.Sem
open Cert.KernelIdeal Cert.KernelIdeal.Gen

namespace Cert.Sage

variable (V : (c : Dev nD) → (b : Ref sig .tc) → Buf (Elt Ideal) ((c : Thread nD τ).loc b))

/-- The first layer's entry at node `i`, feature `c`, the kernel's way, from the whole arrays. -/
def layer1At (X AGG : S100000x128.Idx → EReal) (DINV : S100000x1.Idx → EReal) (W : S256x128.Idx → EReal)
    (B : S1x128.Idx → EReal) (i : Fin 100000) (c : Fin 128) : EReal :=
  max (preK (fun k : Fin 128 => AGG (ix2 i k)) (fun k : Fin 128 => X (ix2 i k)) (DINV (ix2 i (0 : Fin 1)))
        (fun k : Fin 128 => W (ix2 (Fin.castAdd 128 k) c)) (fun k : Fin 128 => W (ix2 (Fin.natAdd 128 k) c))
        (B (ix2 (0 : Fin 1) c))) (Ideal.ofBits .f32 0x00000000#32)

/-- The first layer's whole result array, the kernel's way. -/
def layer1 (X AGG : S100000x128.Idx → EReal) (DINV : S100000x1.Idx → EReal) (W : S256x128.Idx → EReal)
    (B : S1x128.Idx → EReal) : S100000x128.Idx → EReal := fun j => layer1At X AGG DINV W B (j 0) (j 1)

/-- The zero offset of every load and store of the body. -/
theorem hz : (![0, 0] : Fin 2 → Nat) = fun _ => 0 := funext fun a => by fin_cases a <;> rfl

/-- The printed index maps, decided over the 20 grid points: the three row windows move with the output's rows, every
    window sits at column block 0, the two resident windows at block (0, 0), and the output's row block is the point. -/
theorem idx0 : ∀ t : Fin cfg0.N,
    win0_0.index t (0 : Fin 2) = win0_5.index t (0 : Fin 2) ∧ win0_1.index t (0 : Fin 2) = win0_5.index t (0 : Fin 2)
    ∧ win0_2.index t (0 : Fin 2) = win0_5.index t (0 : Fin 2)
    ∧ win0_0.index t (1 : Fin 2) = 0 ∧ win0_1.index t (1 : Fin 2) = 0 ∧ win0_2.index t (1 : Fin 2) = 0
    ∧ win0_5.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val :=
  (by decide +kernel : ∀ t : Fin grid0.N, _)

section Reads
variable (c : Dev nD) (t : Fin cfg0.N) (p : Fin 5000) (q : Fin 128) (I : Fin 100000) (C : Fin 128)

/-- Row `p` of the node block at point `t` is row `I` of the node array, `I` the output row `p` lands on. -/
theorem rd0_0 (hI : I.val = win0_5.index t (0 : Fin 2) * 5000 + 1 * p.val) (k : Fin 128) : iblk0 V c 0 t (ix2 p k) = V c main_arg0 (ix2 I k) := by
  obtain ⟨e0, e1, e2, e3, e4, e5, e6, e7, e8, e9, e10, e11⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = I.val; omega
  | ⟨1, _⟩ => show win0_0.index t (1 : Fin 2) * 128 + 1 * k.val = k.val; omega

/-- The same for the neighbour-sum block. -/
theorem rd0_1 (hI : I.val = win0_5.index t (0 : Fin 2) * 5000 + 1 * p.val) (k : Fin 128) : iblk0 V c 1 t (ix2 p k) = V c main_v22 (ix2 I k) := by
  obtain ⟨e0, e1, e2, e3, e4, e5, e6, e7, e8, e9, e10, e11⟩ := idx0 t
  show V c main_v22 (((cfg0.win 1).blk t).view.emb (ix2 p k)) = _
  refine congrArg (V c main_v22) (funext fun a => Fin.ext ?_)
  match a with
  | ⟨0, _⟩ => show win0_1.index t (0 : Fin 2) * 5000 + 1 * p.val = I.val; omega
  | ⟨1, _⟩ => show win0_1.index t (1 : Fin 2) * 128 + 1 * k.val = k.val; omega

/-- The same for the reciprocal-degree column. -/
theorem rd0_2 (hI : I.val = win0_5.index t (0 : Fin 2) * 5000 + 1 * p.val) : iblk0 V c 2 t (ix2 p (0 : Fin 1)) = V c main_v12 (ix2 I (0 : Fin 1)) := by
  obtain ⟨e0, e1, e2, e3, e4, e5, e6, e7, e8, e9, e10, e11⟩ := idx0 t
  show V c main_v12 (((cfg0.win 2).blk t).view.emb (ix2 p (0 : Fin 1))) = _
  refine congrArg (V c main_v12) (funext fun a => Fin.ext ?_)
  match a with
  | ⟨0, _⟩ => show win0_2.index t (0 : Fin 2) * 5000 + 1 * p.val = I.val; omega
  | ⟨1, _⟩ => show win0_2.index t (1 : Fin 2) * 1 + 1 * 0 = 0; omega

/-- The resident weight block is the whole weight matrix: column `q` of the block is the output column `C`. -/
theorem rd0_3 (hC : C.val = win0_5.index t (1 : Fin 2) * 128 + 1 * q.val) (k : Fin 256) : iblk0 V c 3 t (ix2 k q) = V c main_v25 (ix2 k C) := by
  obtain ⟨e0, e1, e2, e3, e4, e5, e6, e7, e8, e9, e10, e11⟩ := idx0 t
  show V c main_v25 (((cfg0.win 3).blk t).view.emb (ix2 k q)) = _
  refine congrArg (V c main_v25) (funext fun a => Fin.ext ?_)
  match a with
  | ⟨0, _⟩ => show win0_3.index t (0 : Fin 2) * 256 + 1 * k.val = k.val; omega
  | ⟨1, _⟩ => show win0_3.index t (1 : Fin 2) * 128 + 1 * q.val = C.val; omega

/-- The resident bias block is the whole bias row. -/
theorem rd0_4 (hC : C.val = win0_5.index t (1 : Fin 2) * 128 + 1 * q.val) : iblk0 V c 4 t (ix2 (0 : Fin 1) q) = V c main_v26 (ix2 (0 : Fin 1) C) := by
  obtain ⟨e0, e1, e2, e3, e4, e5, e6, e7, e8, e9, e10, e11⟩ := idx0 t
  show V c main_v26 (((cfg0.win 4).blk t).view.emb (ix2 (0 : Fin 1) q)) = _
  refine congrArg (V c main_v26) (funext fun a => Fin.ext ?_)
  match a with
  | ⟨0, _⟩ => show win0_4.index t (0 : Fin 2) * 1 + 1 * 0 = 0; omega
  | ⟨1, _⟩ => show win0_4.index t (1 : Fin 2) * 128 + 1 * q.val = C.val; omega

end Reads

/-- WHAT POINT `t` WRITES BACK is block `t` of `layer1` of the arrays as the region finds them. -/
theorem flushed0 (c : Dev nD) (t : Fin cfg0.N) :
    (dat0 V c).flushed 5 t = ((cfg0.win 5).blk t).view.read (Elt Ideal)
      (layer1 (V c main_arg0) (V c main_v22) (V c main_v12) (V c main_v25) (V c main_v26)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz,
    View.ld_unit_zero (S := S256x128) hz, View.ld_unit_zero (S := S1x128) hz]
  funext y
  obtain ⟨p, q, rfl⟩ : ∃ (p : Fin 5000) (q : Fin 128), y = ix2 p q := ⟨y 0, y 1, eq_ix2 y⟩
  show k0_pay1 (iblk0 V c 1 t) (iblk0 V c 2 t) (iblk0 V c 0 t) (iblk0 V c 3 t) (iblk0 V c 4 t) (ix2 p q)
    = layer1At (V c main_arg0) (V c main_v22) (V c main_v12) (V c main_v25) (V c main_v26)
        ((((cfg0.win 5).blk t).view.emb (ix2 p q)) 0) ((((cfg0.win 5).blk t).view.emb (ix2 p q)) 1)
  refine (pay0_apply (iblk0 V c 1 t) (iblk0 V c 0 t) (iblk0 V c 2 t) (iblk0 V c 3 t) (iblk0 V c 4 t) p q).trans ?_
  unfold layer1At
  refine congrArg₂ max (preK_congr
    (fun k => rd0_1 V c t p _ rfl k) (fun k => rd0_0 V c t p _ rfl k) (rd0_2 V c t p _ rfl)
    (fun k => rd0_3 V c t q _ rfl _) (fun k => rd0_3 V c t q _ rfl _) (rd0_4 V c t q _ rfl)) rfl

/-- An index of the result array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v27).slice (win0_5.rect t)).set ↔ _
  rw [View.set_slice_whole, Rect.mem_set_unit]
  exact Iff.rfl

/-- Every index of the result array is in the block of the point its row falls in: row / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5, e6, e7, e8, e9, e10, e11⟩ := idx0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after region 0: `layer1` of the entry contents. -/
theorem final0 (c : Dev nD) :
    (dat0 V c).arrAt 5 cfg0.N = layer1 (V c main_arg0) (V c main_v22) (V c main_v12) (V c main_v25) (V c main_v26) :=
  (dat0 V c).arrAt_eq_of_cover 5 _ (fun t _ => flushed0 V c t) cover0

end Cert.Sage

end
-- ==== Proof.BlocksLayer2.lean ====
/-
  Region 1 (the second dense layer and the linear head), from blocks to the whole array, at any contents `V` of the
  buffers when the region is entered. As in region 0 the grid has 20 points and point t works on rows
  5000 t .. 5000 t + 4999: it stages those rows of the hidden array, of its neighbour-sum array and of the
  reciprocal-degree column, and, whole, the stacked weights, the bias row, the head's weights and the head's bias;
  it writes back the same rows of the [100000, 2] result. Entry (p, c) of what point t writes back depends on row p of
  the three row blocks, all of the second layer's weights and bias, column c of the head's weights and entry c of the
  head's bias: it is entry (5000 t + p, c) of ONE function of the whole arrays, `layer2`. The row blocks tile the
  100000 rows, so after the region the result array is that function of the entry contents.
-/
import proofs.«132603_j56435870269829_2_alg».proof.Proof.Gen.KernelIdeal.Frame
import proofs.«132603_j56435870269829_2_alg».proof.Proof.Body

set_option maxRecDepth 16384

noncomputable section

open scoped BigOperators
open Idealize.ShloMosaic Idealize.ShloMosaic.ValueIdx Idealize.ShloMosaic.TcCoe Idealize.SL.Sem
open Cert.KernelIdeal Cert.KernelIdeal.Gen

namespace Cert.Sage

variable (V : (c : Dev nD) → (b : Ref sig .tc) → Buf (Elt Ideal) ((c : Thread nD τ).loc b))

/-- The result's entry at node `i`, class `c`, the kernel's way, from the whole arrays: the hidden row of width 64,
    clamped at zero, contracted against the head's weights, plus the head's bias. -/
def layer2At (H AGG : S100000x128.Idx → EReal) (DINV : S100000x1.Idx → EReal) (W : S256x64.Idx → EReal)
    (B : S1x64.Idx → EReal) (WF : S64x2.Idx → EReal) (BF : S1x2.Idx → EReal) (i : Fin 100000) (c : Fin 2) : EReal :=
  (∑ j : Fin 64, max (preK (fun k : Fin 128 => AGG (ix2 i k)) (fun k : Fin 128 => H (ix2 i k)) (DINV (ix2 i (0 : Fin 1)))
        (fun k : Fin 128 => W (ix2 (Fin.castAdd 128 k) j)) (fun k : Fin 128 => W (ix2 (Fin.natAdd 128 k) j))
        (B (ix2 (0 : Fin 1) j))) (Ideal.ofBits .f32 0x00000000#32) * WF (ix2 j c))
    + BF (ix2 (0 : Fin 1) c)

/-- The whole result array, the kernel's way. -/
def layer2 (H AGG : S100000x128.Idx → EReal) (DINV : S100000x1.Idx → EReal) (W : S256x64.Idx → EReal)
    (B : S1x64.Idx → EReal) (WF : S64x2.Idx → EReal) (BF : S1x2.Idx → EReal) : S100000x2.Idx → EReal :=
  fun j => layer2At H AGG DINV W B WF BF (j 0) (j 1)

/-- The zero offset of every load and store of the body. -/
theorem hz1 : (![0, 0] : Fin 2 → Nat) = fun _ => 0 := funext fun a => by fin_cases a <;> rfl

/-- The printed index maps, decided over the 20 grid points: the three row windows move with the output's rows, every
    window sits at column block 0, the four resident windows at block (0, 0), and the output's row block is the point. -/
theorem idx1 : ∀ t : Fin cfg1.N,
    win1_0.index t (0 : Fin 2) = win1_7.index t (0 : Fin 2) ∧ win1_1.index t (0 : Fin 2) = win1_7.index t (0 : Fin 2)
    ∧ win1_2.index t (0 : Fin 2) = win1_7.index t (0 : Fin 2)
    ∧ win1_0.index t (1 : Fin 2) = 0 ∧ win1_1.index t (1 : Fin 2) = 0 ∧ win1_2.index t (1 : Fin 2) = 0
    ∧ win1_7.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val :=
  (by decide +kernel : ∀ t : Fin grid1.N, _)

section Reads
variable (c : Dev nD) (t : Fin cfg1.N) (p : Fin 5000) (q : Fin 2) (I : Fin 100000) (C : Fin 2)

/-- Row `p` of the hidden block at point `t` is row `I` of the hidden array, `I` the output row `p` lands on. -/
theorem rd1_0 (hI : I.val = win1_7.index t (0 : Fin 2) * 5000 + 1 * p.val) (k : Fin 128) :
    iblk1 V c 0 t (ix2 p k) = V c main_v27 (ix2 I k) := by
  obtain ⟨e0, e1, e2, e3, e4, e5, e6, e7, e8, e9, e10, e11, e12, e13, e14, e15⟩ := idx1 t
  show V c main_v27 (((cfg1.win 0).blk t).view.emb (ix2 p k)) = _
  refine congrArg (V c main_v27) (funext fun a => Fin.ext ?_)
  match a with
  | ⟨0, _⟩ => show win1_0.index t (0 : Fin 2) * 5000 + 1 * p.val = I.val; omega
  | ⟨1, _⟩ => show win1_0.index t (1 : Fin 2) * 128 + 1 * k.val = k.val; omega

/-- The same for the neighbour-sum block. -/
theorem rd1_1 (hI : I.val = win1_7.index t (0 : Fin 2) * 5000 + 1 * p.val) (k : Fin 128) :
    iblk1 V c 1 t (ix2 p k) = V c main_v37 (ix2 I k) := by
  obtain ⟨e0, e1, e2, e3, e4, e5, e6, e7, e8, e9, e10, e11, e12, e13, e14, e15⟩ := idx1 t
  show V c main_v37 (((cfg1.win 1).blk t).view.emb (ix2 p k)) = _
  refine congrArg (V c main_v37) (funext fun a => Fin.ext ?_)
  match a with
  | ⟨0, _⟩ => show win1_1.index t (0 : Fin 2) * 5000 + 1 * p.val = I.val; omega
  | ⟨1, _⟩ => show win1_1.index t (1 : Fin 2) * 128 + 1 * k.val = k.val; omega

/-- The same for the reciprocal-degree column. -/
theorem rd1_2 (hI : I.val = win1_7.index t (0 : Fin 2) * 5000 + 1 * p.val) :
    iblk1 V c 2 t (ix2 p (0 : Fin 1)) = V c main_v12 (ix2 I (0 : Fin 1)) := by
  obtain ⟨e0, e1, e2, e3, e4, e5, e6, e7, e8, e9, e10, e11, e12, e13, e14, e15⟩ := idx1 t
  show V c main_v12 (((cfg1.win 2).blk t).view.emb (ix2 p (0 : Fin 1))) = _
  refine congrArg (V c main_v12) (funext fun a => Fin.ext ?_)
  match a with
  | ⟨0, _⟩ => show win1_2.index t (0 : Fin 2) * 5000 + 1 * p.val = I.val; omega
  | ⟨1, _⟩ => show win1_2.index t (1 : Fin 2) * 1 + 1 * 0 = 0; omega

/-- The resident weight block is the whole stacked weight matrix. -/
theorem rd1_3 (k : Fin 256) (j : Fin 64) : iblk1 V c 3 t (ix2 k j) = V c main_v40 (ix2 k j) := by
  obtain ⟨e0, e1, e2, e3, e4, e5, e6, e7, e8, e9, e10, e11, e12, e13, e14, e15⟩ := idx1 t
  show V c main_v40 (((cfg1.win 3).blk t).view.emb (ix2 k j)) = _
  refine congrArg (V c main_v40) (funext fun a => Fin.ext ?_)
  match a with
  | ⟨0, _⟩ => show win1_3.index t (0 : Fin 2) * 256 + 1 * k.val = k.val; omega
  | ⟨1, _⟩ => show win1_3.index t (1 : Fin 2) * 64 + 1 * j.val = j.val; omega

/-- The resident bias block is the whole bias row. -/
theorem rd1_4 (j : Fin 64) : iblk1 V c 4 t (ix2 (0 : Fin 1) j) = V c main_v42 (ix2 (0 : Fin 1) j) := by
  obtain ⟨e0, e1, e2, e3, e4, e5, e6, e7, e8, e9, e10, e11, e12, e13, e14, e15⟩ := idx1 t
  show V c main_v42 (((cfg1.win 4).blk t).view.emb (ix2 (0 : Fin 1) j)) = _
  refine congrArg (V c main_v42) (funext fun a => Fin.ext ?_)
  match a with
  | ⟨0, _⟩ => show win1_4.index t (0 : Fin 2) * 1 + 1 * 0 = 0; omega
  | ⟨1, _⟩ => show win1_4.index t (1 : Fin 2) * 64 + 1 * j.val = j.val; omega

/-- The resident head-weight block is the whole head matrix: column `q` of the block is the output column `C`. -/
theorem rd1_5 (hC : C.val = win1_7.index t (1 : Fin 2) * 2 + 1 * q.val) (j : Fin 64) :
    iblk1 V c 5 t (ix2 j q) = V c main_v41 (ix2 j C) := by
  obtain ⟨e0, e1, e2, e3, e4, e5, e6, e7, e8, e9, e10, e11, e12, e13, e14, e15⟩ := idx1 t
  show V c main_v41 (((cfg1.win 5).blk t).view.emb (ix2 j q)) = _
  refine congrArg (V c main_v41) (funext fun a => Fin.ext ?_)
  match a with
  | ⟨0, _⟩ => show win1_5.index t (0 : Fin 2) * 64 + 1 * j.val = j.val; omega
  | ⟨1, _⟩ => show win1_5.index t (1 : Fin 2) * 2 + 1 * q.val = C.val; omega

/-- The resident head-bias block is the whole head bias row. -/
theorem rd1_6 (hC : C.val = win1_7.index t (1 : Fin 2) * 2 + 1 * q.val) :
    iblk1 V c 6 t (ix2 (0 : Fin 1) q) = V c main_v43 (ix2 (0 : Fin 1) C) := by
  obtain ⟨e0, e1, e2, e3, e4, e5, e6, e7, e8, e9, e10, e11, e12, e13, e14, e15⟩ := idx1 t
  show V c main_v43 (((cfg1.win 6).blk t).view.emb (ix2 (0 : Fin 1) q)) = _
  refine congrArg (V c main_v43) (funext fun a => Fin.ext ?_)
  match a with
  | ⟨0, _⟩ => show win1_6.index t (0 : Fin 2) * 1 + 1 * 0 = 0; omega
  | ⟨1, _⟩ => show win1_6.index t (1 : Fin 2) * 2 + 1 * q.val = C.val; omega

end Reads

/-- WHAT POINT `t` WRITES BACK is block `t` of `layer2` of the arrays as the region finds them. -/
theorem flushed1 (c : Dev nD) (t : Fin cfg1.N) :
    (dat1 V c).flushed 7 t = ((cfg1.win 7).blk t).view.read (Elt Ideal)
      (layer2 (V c main_v27) (V c main_v37) (V c main_v12) (V c main_v40) (V c main_v42) (V c main_v41) (V c main_v43)) := by
  show (cfg1.win 7).cut (grid1.coords t) ((dat1 V c).after 7 t) = _
  rw [after1_7]
  unfold out1_7
  rw [View.canon_unit_zero hz1]
  simp only [View.ld_unit_zero (S := S5000x128) hz1, View.ld_unit_zero (S := S5000x1) hz1,
    View.ld_unit_zero (S := S256x64) hz1, View.ld_unit_zero (S := S1x64) hz1, View.ld_unit_zero (S := S64x2) hz1,
    View.ld_unit_zero (S := S1x2) hz1]
  funext y
  obtain ⟨p, q, rfl⟩ : ∃ (p : Fin 5000) (q : Fin 2), y = ix2 p q := ⟨y 0, y 1, eq_ix2 y⟩
  show k1_pay1 (iblk1 V c 1 t) (iblk1 V c 2 t) (iblk1 V c 0 t) (iblk1 V c 3 t) (iblk1 V c 4 t) (iblk1 V c 5 t)
      (iblk1 V c 6 t) (ix2 p q)
    = layer2At (V c main_v27) (V c main_v37) (V c main_v12) (V c main_v40) (V c main_v42) (V c main_v41) (V c main_v43)
        ((((cfg1.win 7).blk t).view.emb (ix2 p q)) 0) ((((cfg1.win 7).blk t).view.emb (ix2 p q)) 1)
  refine (pay1_apply (iblk1 V c 1 t) (iblk1 V c 0 t) (iblk1 V c 2 t) (iblk1 V c 3 t) (iblk1 V c 4 t) (iblk1 V c 5 t)
    (iblk1 V c 6 t) p q).trans ?_
  unfold layer2At
  refine congrArg₂ (· + ·) (Finset.sum_congr rfl fun j _ => congrArg₂ (· * ·) (congrArg₂ max (preK_congr
    (fun k => rd1_1 V c t p _ rfl k) (fun k => rd1_0 V c t p _ rfl k) (rd1_2 V c t p _ rfl)
    (fun k => rd1_3 V c t _ j) (fun k => rd1_3 V c t _ j) (rd1_4 V c t j)) rfl) (rd1_5 V c t q _ rfl j))
    (rd1_6 V c t q _ rfl)

/-- An index of the result array is in point `t`'s block iff each coordinate is in the block's range on its axis. -/
theorem mem_blk1 (t : Fin cfg1.N) (i : S100000x2.Idx) :
    i ∈ ((cfg1.win 7).blk t).view.set ↔ ∀ a : Fin 2, win1_7.index t a * S5000x2.size a ≤ (i a).val
      ∧ (i a).val < win1_7.index t a * S5000x2.size a + S5000x2.size a := by
  show i ∈ ((View.whole main_v44).slice (win1_7.rect t)).set ↔ _
  rw [View.set_slice_whole, Rect.mem_set_unit]
  exact Iff.rfl

/-- Every index of the result array is in the block of the point its row falls in: row / 5000. -/
theorem cover1 (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  have hN : cfg1.N = 20 := N_1
  let t : Fin cfg1.N := ⟨(i 0).val / 5000, by rw [hN]; omega⟩
  obtain ⟨e0, e1, e2, e3, e4, e5, e6, e7, e8, e9, e10, e11, e12, e13, e14, e15⟩ := idx1 t
  have ht : t.val = (i 0).val / 5000 := rfl
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 2 ≤ (i 1).val ∧ (i 1).val < win1_7.index t (1 : Fin 2) * 2 + 2; omega

/-- THE ARRAY after region 1: `layer2` of the entry contents. -/
theorem final1 (c : Dev nD) :
    (dat1 V c).arrAt 7 cfg1.N
      = layer2 (V c main_v27) (V c main_v37) (V c main_v12) (V c main_v40) (V c main_v42) (V c main_v41) (V c main_v43) :=
  (dat1 V c).arrAt_eq_of_cover 7 _ (fun t _ => flushed1 V c t) cover1

end Cert.Sage

end
-- ==== Proof.Layer1Agrees.lean ====
/-
  The first layer: the kernel's whole-array function is the reference's hidden stage.

  At node i and feature c the reference computes the clamp at zero of
      ((sum_k (agg(i,k) / D(i)) * Wl(c,k))  +  b(c))  +  sum_k x(i,k) * Wr(c,k),
  D(i) = max(degree(i), 1); the kernel computes the clamp at zero of
      (sum_k agg(i,k) * (1 / D(i)) * Wl(c,k)  +  sum_k x(i,k) * Wr(c,k))  +  b(c)
  over the same neighbour sums agg and the same clamped degrees. D(i) is at least one, so it is not zero, and the two
  are equal on the extended reals (the quotient by a nonzero divisor is the product with its reciprocal; the sum is
  commutative and associative). No finiteness of the inputs is used.
-/
import proofs.«132603_j56435870269829_2_alg».proof.Proof.Gen.ReferenceIdeal.Read
import proofs.«132603_j56435870269829_2_alg».proof.Proof.BlocksLayer1
import proofs.«132603_j56435870269829_2_alg».proof.Proof.Operands
import proofs.«132603_j56435870269829_2_alg».proof.Proof.RowLaw
import Idealize.ShloMosaic.Lib.ValueLayout

set_option maxRecDepth 16384

noncomputable section

open scoped BigOperators
open Idealize.ShloMosaic Idealize.ShloMosaic.ValueIdx
open Cert.KernelIdeal Cert.KernelIdeal.Facts₀ Cert.KernelIdeal.Facts
open Cert.ReferenceIdeal.Read

namespace Cert.Sage

section
variable (x0 : (⟨Cert.ReferenceIdeal.S100000x128, .f32⟩ : BufTy).Contents (Elt Ideal))
  (x1 : (⟨Cert.ReferenceIdeal.S2x1600000, .i32⟩ : BufTy).Contents (Elt Ideal))
  (x2 x4 : (⟨Cert.ReferenceIdeal.S128x128, .f32⟩ : BufTy).Contents (Elt Ideal))
  (x3 : (⟨Cert.ReferenceIdeal.S128, .f32⟩ : BufTy).Contents (Elt Ideal))

/-- A node's clamped degree, max(degree, 1), is not zero. -/
theorem deg_ne_zero (i : Fin 100000) : val_main_v19 (F := Ideal) x1 (ix1 i) ≠ 0 := by
  rw [val_main_v19_apply, val_main_v18_apply, val_main_cst_3_apply]
  generalize val_main_v17 (F := Ideal) x1 (ix1 i) = d
  show max d (Ideal.ofBits .f32 0x3F800000#32) ≠ 0
  rw [one_f32]
  exact max_one_ne_zero _

/-- The reference's hidden stage at node `i`, feature `c`, in the reference's own arrangement. -/
theorem ref_h1_apply (i : Fin 100000) (c : Fin 128) :
    val_main_v31 (F := Ideal) x0 x1 x2 x3 x4 (ix2 i c)
      = max (preR (fun k : Fin 128 => val_main_v13 (F := Ideal) x0 x1 (ix2 i k)) (fun k : Fin 128 => x0 (ix2 i k))
          (val_main_v19 (F := Ideal) x1 (ix1 i)) (fun k : Fin 128 => x2 (ix2 c k)) (fun k : Fin 128 => x4 (ix2 c k))
          (x3 (ix1 c))) (Ideal.ofBits .f32 0x00000000#32) := by
  have h1 : ∀ k : Fin 128, lidx_main_v24 (ix2 i c) k = ix2 i k := fun k => funext fun a => by
    match a with | ⟨0, _⟩ => rfl | ⟨1, _⟩ => rfl
  have h2 : ∀ k : Fin 128, idx_main_v20 (idx_main_v21 (ix2 i k)) = ix1 i := fun k => funext fun a => by
    match a with | ⟨0, _⟩ => rfl
  have h3 : ∀ k : Fin 128, idx_main_v23 (ridx_main_v24 (ix2 i c) k) = ix2 c k := fun k => funext fun a => by
    match a with | ⟨0, _⟩ => rfl | ⟨1, _⟩ => rfl
  have h4 : idx_main_v25 (idx_main_v26 (ix2 i c)) = ix1 c := funext fun a => by
    match a with | ⟨0, _⟩ => rfl
  have h5 : ∀ k : Fin 128, lidx_main_v29 (ix2 i c) k = ix2 i k := fun k => funext fun a => by
    match a with | ⟨0, _⟩ => rfl | ⟨1, _⟩ => rfl
  have h6 : ∀ k : Fin 128, idx_main_v28 (ridx_main_v29 (ix2 i c) k) = ix2 c k := fun k => funext fun a => by
    match a with | ⟨0, _⟩ => rfl | ⟨1, _⟩ => rfl
  rw [val_main_v31_apply, val_main_v30_apply, val_main_v27_apply, val_main_v24_apply, val_main_v29_apply,
    val_main_v26_apply, val_main_v25_apply, val_main_call0_v0_apply, val_main_call0_cst_apply]
  unfold preR
  refine congrArg₂ max (congrArg₂ (· + ·) (congrArg₂ (· + ·) (Finset.sum_congr rfl fun k _ => ?_) ?_)
    (Finset.sum_congr rfl fun k _ => ?_)) rfl
  · rw [h1 k, val_main_v22_apply, val_main_v21_apply, val_main_v20_apply, h2 k, val_main_v23_apply, h3 k]
    rfl
  · rw [h4]
  · rw [h5 k, val_main_v28_apply, h6 k]

/-- The kernel's first-layer function of the host-built operands IS the reference's hidden stage. -/
theorem layer1_eq :
    layer1 x0 (val_main_v13 (F := Ideal) x0 x1) (recipCol (val_main_v19 (F := Ideal) x1)) (stacked1 x2 x4)
      (shapeCast S1x128 x3 shapeCasts_S128_S1x128)
    = val_main_v31 (F := Ideal) x0 x1 x2 x3 x4 := by
  funext j
  obtain ⟨i, c, rfl⟩ : ∃ (i : Fin 100000) (c : Fin 128), j = ix2 i c := ⟨j 0, j 1, eq_ix2 j⟩
  rw [ref_h1_apply, ← preK_eq_preR _ _ _ (deg_ne_zero x1 i)]
  show layer1At _ _ _ _ _ i c = _
  unfold layer1At
  exact congrArg₂ max (preK_congr (fun _ => rfl) (fun _ => rfl) (recipCol_apply _ i) (fun k => stacked1_top x2 x4 k c)
    (fun k => stacked1_bot x2 x4 k c) (shapeCast_a_1a_apply x3 shapeCasts_S128_S1x128 0 c)) rfl

end

end Cert.Sage

end
-- ==== Proof.Layer2Agrees.lean ====
/-
  The second layer and the head: the kernel's whole-array function is the reference's result stage.

  With h the hidden array and agg its neighbour sums, at node i and hidden unit j the reference computes the clamp at
  zero of ((sum_k (agg(i,k) / D'(i)) * Wl(j,k)) + b(j)) + sum_k h(i,k) * Wr(j,k), D' the clamped degrees it computes a
  second time from the same edge list; the kernel reuses the reciprocal clamped degrees of the first layer and
  contracts the two rows in one pass, the bias last. The second computation of the clamped degrees is the first one,
  term for term. The head is the same 64-long contraction against the head's weights plus its bias on both sides.
-/
import proofs.«132603_j56435870269829_2_alg».proof.Proof.Gen.ReferenceIdeal.Read
import proofs.«132603_j56435870269829_2_alg».proof.Proof.BlocksLayer2
import proofs.«132603_j56435870269829_2_alg».proof.Proof.Operands
import proofs.«132603_j56435870269829_2_alg».proof.Proof.RowLaw
import Idealize.ShloMosaic.Lib.ValueLayout

set_option maxRecDepth 16384

noncomputable section

open scoped BigOperators
open Idealize.ShloMosaic Idealize.ShloMosaic.ValueIdx
open Cert.KernelIdeal Cert.KernelIdeal.Facts₀ Cert.KernelIdeal.Facts
open Cert.ReferenceIdeal.Read

namespace Cert.Sage

section
variable (x0 : (⟨Cert.ReferenceIdeal.S100000x128, .f32⟩ : BufTy).Contents (Elt Ideal))
  (x1 : (⟨Cert.ReferenceIdeal.S2x1600000, .i32⟩ : BufTy).Contents (Elt Ideal))
  (x2 x4 : (⟨Cert.ReferenceIdeal.S128x128, .f32⟩ : BufTy).Contents (Elt Ideal))
  (x3 : (⟨Cert.ReferenceIdeal.S128, .f32⟩ : BufTy).Contents (Elt Ideal))
  (x5 x7 : (⟨Cert.ReferenceIdeal.S64x128, .f32⟩ : BufTy).Contents (Elt Ideal))
  (x6 : (⟨Cert.ReferenceIdeal.S64, .f32⟩ : BufTy).Contents (Elt Ideal))
  (x8 : (⟨Cert.ReferenceIdeal.S2x64, .f32⟩ : BufTy).Contents (Elt Ideal))
  (x9 : (⟨Cert.ReferenceIdeal.S2, .f32⟩ : BufTy).Contents (Elt Ideal))

/-- The clamped degrees the reference computes for its second layer are those of its first: the same operations of
    the same edge list. -/
theorem deg_again : val_main_v47 (F := Ideal) x1 = val_main_v19 (F := Ideal) x1 := rfl

/-- A node's clamped degree, as computed the second time, is not zero. -/
theorem deg2_ne_zero (i : Fin 100000) : val_main_v47 (F := Ideal) x1 (ix1 i) ≠ 0 := by
  rw [val_main_v47_apply, val_main_v46_apply, val_main_cst_9_apply]
  generalize val_main_v45 (F := Ideal) x1 (ix1 i) = d
  show max d (Ideal.ofBits .f32 0x3F800000#32) ≠ 0
  rw [one_f32]
  exact max_one_ne_zero _

/-- The reference's second hidden stage at node `i`, unit `j`, in the reference's own arrangement. -/
theorem ref_h2_apply (i : Fin 100000) (j : Fin 64) :
    val_main_v59 (F := Ideal) x0 x1 x2 x3 x4 x5 x6 x7 (ix2 i j)
      = max (preR (fun k : Fin 128 => val_main_v41 (F := Ideal) x0 x1 x2 x3 x4 (ix2 i k))
          (fun k : Fin 128 => val_main_v31 (F := Ideal) x0 x1 x2 x3 x4 (ix2 i k))
          (val_main_v47 (F := Ideal) x1 (ix1 i)) (fun k : Fin 128 => x5 (ix2 j k)) (fun k : Fin 128 => x7 (ix2 j k))
          (x6 (ix1 j))) (Ideal.ofBits .f32 0x00000000#32) := by
  have g1 : ∀ k : Fin 128, lidx_main_v52 (ix2 i j) k = ix2 i k := fun k => funext fun a => by
    match a with | ⟨0, _⟩ => rfl | ⟨1, _⟩ => rfl
  have g2 : ∀ k : Fin 128, idx_main_v48 (idx_main_v49 (ix2 i k)) = ix1 i := fun k => funext fun a => by
    match a with | ⟨0, _⟩ => rfl
  have g3 : ∀ k : Fin 128, idx_main_v51 (ridx_main_v52 (ix2 i j) k) = ix2 j k := fun k => funext fun a => by
    match a with | ⟨0, _⟩ => rfl | ⟨1, _⟩ => rfl
  have g4 : idx_main_v53 (idx_main_v54 (ix2 i j)) = ix1 j := funext fun a => by
    match a with | ⟨0, _⟩ => rfl
  have g5 : ∀ k : Fin 128, lidx_main_v57 (ix2 i j) k = ix2 i k := fun k => funext fun a => by
    match a with | ⟨0, _⟩ => rfl | ⟨1, _⟩ => rfl
  have g6 : ∀ k : Fin 128, idx_main_v56 (ridx_main_v57 (ix2 i j) k) = ix2 j k := fun k => funext fun a => by
    match a with | ⟨0, _⟩ => rfl | ⟨1, _⟩ => rfl
  rw [val_main_v59_apply, val_main_v58_apply, val_main_v55_apply, val_main_v52_apply, val_main_v57_apply,
    val_main_v54_apply, val_main_v53_apply, val_main_call1_v0_apply, val_main_call1_cst_apply]
  unfold preR
  refine congrArg₂ max (congrArg₂ (· + ·) (congrArg₂ (· + ·) (Finset.sum_congr rfl fun k _ => ?_) ?_)
    (Finset.sum_congr rfl fun k _ => ?_)) rfl
  · rw [g1 k, val_main_v50_apply, val_main_v49_apply, val_main_v48_apply, g2 k, val_main_v51_apply, g3 k]
    rfl
  · rw [g4]
  · rw [g5 k, val_main_v56_apply, g6 k]

/-- The reference's result at node `i`, class `c`: the second hidden row against the head's weights, plus its bias. -/
theorem ref_out_apply (i : Fin 100000) (c : Fin 2) :
    val_main_v64 (F := Ideal) x0 x1 x2 x3 x4 x5 x6 x7 x8 x9 (ix2 i c)
      = (∑ j : Fin 64, val_main_v59 (F := Ideal) x0 x1 x2 x3 x4 x5 x6 x7 (ix2 i j) * x8 (ix2 c j)) + x9 (ix1 c) := by
  have q1 : ∀ j : Fin 64, lidx_main_v61 (ix2 i c) j = ix2 i j := fun j => funext fun a => by
    match a with | ⟨0, _⟩ => rfl | ⟨1, _⟩ => rfl
  have q2 : ∀ j : Fin 64, idx_main_v60 (ridx_main_v61 (ix2 i c) j) = ix2 c j := fun j => funext fun a => by
    match a with | ⟨0, _⟩ => rfl | ⟨1, _⟩ => rfl
  have q3 : idx_main_v62 (idx_main_v63 (ix2 i c)) = ix1 c := funext fun a => by
    match a with | ⟨0, _⟩ => rfl
  rw [val_main_v64_apply, val_main_v61_apply, val_main_v63_apply, val_main_v62_apply]
  refine congrArg₂ (· + ·) (Finset.sum_congr rfl fun j _ => ?_) ?_
  · rw [q1 j, val_main_v60_apply, q2 j]
  · rw [q3]

/-- The kernel's second-region function of the host-built operands, at the reference's hidden stage and its neighbour
    sums, IS the reference's result stage. -/
theorem layer2_eq :
    layer2 (val_main_v31 (F := Ideal) x0 x1 x2 x3 x4) (val_main_v41 (F := Ideal) x0 x1 x2 x3 x4)
      (recipCol (val_main_v19 (F := Ideal) x1)) (stacked2 x5 x7) (shapeCast S1x64 x6 shapeCasts_S64_S1x64) (headT x8)
      (shapeCast S1x2 x9 shapeCasts_S2_S1x2)
    = val_main_v64 (F := Ideal) x0 x1 x2 x3 x4 x5 x6 x7 x8 x9 := by
  funext jj
  obtain ⟨i, c, rfl⟩ : ∃ (i : Fin 100000) (c : Fin 2), jj = ix2 i c := ⟨jj 0, jj 1, eq_ix2 jj⟩
  rw [ref_out_apply]
  show layer2At _ _ _ _ _ _ _ i c = _
  unfold layer2At
  refine congrArg₂ (· + ·) (Finset.sum_congr rfl fun j _ => congrArg₂ (· * ·) ?_
    (transpose_ix2_apply x8 transposes_S2x64_S64x2_1_0 j c)) (shapeCast_a_1a_apply x9 shapeCasts_S2_S1x2 0 c)
  rw [ref_h2_apply, ← preK_eq_preR _ _ _ (deg2_ne_zero x1 i)]
  exact congrArg₂ max (preK_congr (fun _ => rfl) (fun _ => rfl)
    ((recipCol_apply _ i).trans (congrArg (Ideal.div 1) (congrFun (deg_again x1).symm (ix1 i))))
    (fun k => stacked2_top x5 x7 k j) (fun k => stacked2_bot x5 x7 k j)
    (shapeCast_a_1a_apply x6 shapeCasts_S64_S1x64 0 j)) rfl

end

end Cert.Sage

end
-- ==== Proof.KernelValue.lean ====
/-
  The idealized kernel's result, as one function of its arguments: the reference's own result stage.

  Region 0 leaves the hidden array at the first layer's function of what the host prepared, which is the reference's
  hidden stage; the host then gathers and sums that array exactly as the reference does, so region 1 is entered with
  the reference's second neighbour sums, the same reciprocal clamped degrees, and the second layer's and the head's
  operands; region 1 leaves the result array at the second function of those, which is the reference's result stage.
-/
import proofs.«132603_j56435870269829_2_alg».proof.Proof.KernelRun
import proofs.«132603_j56435870269829_2_alg».proof.Proof.HostSide
import proofs.«132603_j56435870269829_2_alg».proof.Proof.BlocksLayer1
import proofs.«132603_j56435870269829_2_alg».proof.Proof.BlocksLayer2
import proofs.«132603_j56435870269829_2_alg».proof.Proof.Layer1Agrees
import proofs.«132603_j56435870269829_2_alg».proof.Proof.Layer2Agrees

set_option maxRecDepth 16384

noncomputable section

open Idealize.ShloMosaic Idealize.ShloMosaic.ValueIdx Idealize.ShloMosaic.TcCoe Idealize.SL.Sem
open Cert.KernelIdeal Cert.KernelIdeal.Gen
open Cert.ReferenceIdeal.Read

namespace Cert.Sage

variable (m : (ℓ : Loc nD τ sig) → Buf (Elt Ideal) ℓ) (ρ : Dev nD → PrngReg) (c : Dev nD)

/-- After region 0 the hidden array is the reference's hidden stage of the arguments. -/
theorem W2_v27 : W2 m ρ c (Proc.devRef .tc main_v27)
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0 (V1 m ρ) c).trans ?_)
  rw [V1_arg0, V1_v22, V1_v12, V1_v25, V1_v26]
  exact layer1_eq _ _ _ _ _

/-- After region 1 the result array is the reference's result stage of the arguments. -/
theorem W4_v44 : W4 m ρ c (Proc.devRef .tc main_v44)
    = val_main_v64 (F := Ideal) (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9)) := by
  refine (W4_arr m ρ c 7).trans ((final1 (V3 m ρ) c).trans ?_)
  rw [V3_v27, W2_v27, V3_v37 m ρ c (W2_v27 m ρ c), V3_v12, V3_v40, V3_v42, V3_v41, V3_v43]
  exact layer2_eq _ _ _ _ _ _ _ _ _ _

/-- The idealized kernel's run: every weakly fair execution terminates without a fault, the result buffer at the
    reference's result stage of the arguments, the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44)
        = val_main_v64 (F := Ideal) (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun r h c => ⟨(h c).1.trans (W4_v44 m ρ c), (h c).2⟩) (run_named m ρ)

end Cert.Sage

end
-- ==== Proof.lean ====
/-
  A two-layer mean-aggregation graph network with a linear head, as a kernel of two dense regions among host
  gathers and sums, against its plain reference: equal results on the extended reals.

  Both programs compute, per layer, for node i with neighbour sum agg(i) (the rows of the previous layer gathered along
  the edges' sources and added up per destination) and clamped degree D(i) = max(degree(i), 1),
      relu( (agg(i) / D(i)) Wl^T + b + x(i) Wr^T ),
  and then a linear head. The reference does it in that order. The kernel computes 1 / D once on the host, scales the
  neighbour sums by it inside the region, lays the scaled row beside the node's own row and contracts the 256-long row
  against the two weight matrices stacked, then adds the bias; its second region also applies the head. A change of
  float format is the identity on the extended reals, so what is left to join the two is: a quotient by a nonzero
  divisor is the product with its reciprocal (D is at least one, so not zero); a sum over 256 terms is the sum of its two
  halves; and the sum is commutative and associative. None of these needs the inputs to be finite, and the gathers and
  per-destination sums are the same functions of the same operands on both sides, so they are never opened.

  The frames are the generated ones (the reference's is its generated run with the result dropped); the ledger of the
  idealization is empty.
-/
import proofs.«132603_j56435870269829_2_alg».proof.Defs
import proofs.«132603_j56435870269829_2_alg».proof.Proof.Gen.Kernel
import proofs.«132603_j56435870269829_2_alg».proof.Proof.Gen.Kernel.Skeleton
import proofs.«132603_j56435870269829_2_alg».proof.Proof.Gen.Kernel.Launch
import proofs.«132603_j56435870269829_2_alg».proof.Proof.Gen.Kernel.Points
import proofs.«132603_j56435870269829_2_alg».proof.Proof.Gen.Kernel.Frame
import proofs.«132603_j56435870269829_2_alg».proof.Proof.Gen.KernelIdeal
import proofs.«132603_j56435870269829_2_alg».proof.Proof.Gen.KernelIdeal.Skeleton
import proofs.«132603_j56435870269829_2_alg».proof.Proof.Gen.KernelIdeal.Launch
import proofs.«132603_j56435870269829_2_alg».proof.Proof.Gen.KernelIdeal.Points
import proofs.«132603_j56435870269829_2_alg».proof.Proof.Gen.KernelIdeal.Frame
import proofs.«132603_j56435870269829_2_alg».proof.Proof.Gen.ReferenceIdeal
import proofs.«132603_j56435870269829_2_alg».proof.Proof.Gen.ReferenceIdeal.Run
import proofs.«132603_j56435870269829_2_alg».proof.Proof.Gen.ReferenceIdeal.Read
import proofs.«132603_j56435870269829_2_alg».proof.Proof.Gen.Pre_finite_inputs
import proofs.«132603_j56435870269829_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- From memories agreeing on the arguments both programs end with the result array at the reference's result stage
    of those arguments: the kernel by its run read region by region, the reference by its generated run. -/
theorem algebraic : Cert.algebraic_KernelIdeal_ReferenceIdeal := by
  intro m ρ m' ρ' _ hagree
  refine ⟨_, Cert.Sage.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v64_eq, e0, e1, e2, e3, e4, e5, e6, e7, e8, e9]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
